-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S8192x512 : Shape := ⟨2, ![8192, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S4096x512 .f32) (main_arg1 : FVec F S8192x512 .f32) (main_arg2 : FVec F S8192x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Kernel.lean ====
abbrev S4096x512 : Shape := ⟨2, ![4096, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1x1024 : Shape := ⟨2, ![1, 1024]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x512, .f32⟩
  | .hbm, ⟨3, _⟩ => ⟨S8192x512, .bf16⟩
  | .hbm, ⟨4, _⟩ => ⟨S8192x512, .bf16⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1x1024, .f32⟩
  | .local _ .vmem, ⟨8, _⟩ => ⟨S1024x512, .f32⟩
  | .local _ .vmem, ⟨9, _⟩ => ⟨S1024x512, .f32⟩
  | .local _ .vmem, ⟨10, _⟩ => ⟨S1024x1, .f32⟩
  | .local _ .vmem, ⟨11, _⟩ => ⟨S1024x512, .f32⟩
  | .local _ .vmem, ⟨12, _⟩ => ⟨S1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  broadcasts_S1024x1_S1024x512 : S1024x1.Broadcasts S1024x512
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x512.size a
  hwx0_4 : ∀ i : grid0.Coords, EltTy.bits .f32 = 32 ∨ (Rect.block (s := S4096x512) S1024x512.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S8192x512 : Shape := ⟨2, ![8192, 512]⟩
abbrev S_ : Shape := ⟨0, ![]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S512x8192 : Shape := ⟨2, ![512, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S8192x512, .f32⟩
  | .hbm, ⟨2, _⟩ => ⟨S8192x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S512x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S8192x512_S8192_d1 : S8192x512.ReducesTo [1] S8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  transposes_S8192x512_S512x8192_1_0 : S8192x512.Transposes [1, 0] S512x8192
  bcast_S_S4096x8192 : S_.BroadcastsInDim S4096x8192 (![] : Fin 0 → Fin S4096x8192.rank)
  reducesTo_S4096x8192_S4096_d1 : S4096x8192.ReducesTo [1] S4096
  bcast_S4096x1_S4096x512_0_1 : S4096x1.BroadcastsInDim S4096x512 (![0, 1] : Fin 2 → Fin S4096x512.rank)
  dot_S4096x512_S512x8192_S4096x8192_1_0_0_1_n_n_wf : DotDims.WF S4096x512 S512x8192 S4096x8192 [1] [0] [0] [1] [] []
  dot_S4096x8192_S8192x512_S4096x512_1_0_0_1_n_n_wf : DotDims.WF S4096x8192 S8192x512 S4096x512 [1] [0] [0] [1] [] []

variable [Facts₀]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def dot_S4096x8192_S8192x512_S4096x512_1_0_0_1_n_n : DotDims S4096x8192 S8192x512 S4096x512 where
  lhsContracting := [1]
  rhsContracting := [0]
  lhsNonContracting := [0]
  rhsNonContracting := [1]
  lhsBatch := []
  rhsBatch := []
  wf := dot_S4096x8192_S8192x512_S4096x512_1_0_0_1_n_n_wf

class Facts : Prop extends Facts₀ where

variable [Facts]
-- ==== Proof.Pieces.lean ====
/-
  What each kind of grid point leaves in the three buffers the kernel carries from point to point, and in the output
  block, as pure functions of what the point loads.

  The grid is 4 row blocks (1024 query rows each) by 8 key tiles (1024 keys each); a row block's 8 points run in order.
  Three buffers persist across them: the weight sums Σ w (one per query row), the weighted value sums Σ w·V
  (one row of 512 per query row), and the squared norms ‖b_p‖² of the block's query rows.
    • first tile of a row block: the squared norms are computed and stored; both sums are zeroed, the zeros read back,
      and the sums stepped once;
    • middle tiles: both sums are stepped from what the tile before left; the squared norms are only read;
    • last tile: both sums are stepped, then read back, and their quotient is stored as the output block.
  "Stepped" means: weight sums ← weight sums + (row sums of this tile's weights); value sums ← value sums + (this tile's
  weights) · (this tile's values). Every store covers its whole buffer and every load reads a whole buffer, so each
  buffer ends at the payload of the last store into it, and a read-back of a buffer stored once reads that store's
  payload. The statements hold for any float semantics.
-/
import proofs.«138984_j41927470743575_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KnnPieces

open Cert.KernelIdeal Cert.KernelIdeal.Gen

variable {F : FTy → Type} [FloatOps F]

variable (c : Dev nD) (i : grid0.Coords)
  (arg2 : Memref sig .tc .vmem S1024x512 .f32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1x1024 .f32) (harg5 : arg5.IsWhole)
  (arg6 : Memref sig .tc .vmem S1024x512 .f32) (harg6 : arg6.IsWhole)
  (arg7 : Memref sig .tc .vmem S1024x1 .f32) (harg7 : arg7.IsWhole)
  (arg8 : Memref sig .tc .vmem S1024x512 .f32) (harg8 : arg8.IsWhole)
  (arg9 : Memref sig .tc .vmem S1024x1 .f32) (harg9 : arg9.IsWhole)
  (x0 : Vec F S1024x512 .f32) (x1 : Vec F S1024x512 .bf16) (x2 : Vec F S1024x512 .bf16) (x3 : Vec F S1x1024 .f32)
  (xs0 : Vec F S1024x1 .f32) (xs1 : Vec F S1024x512 .f32) (xs2 : Vec F S1024x1 .f32)

theorem hz : (![0, 0] : Fin 2 → Nat) = fun _ => 0 := funext fun a => by fin_cases a <;> rfl

/-! ## The middle points of a row block: the two running sums step from what the point before left -/

/-- At a middle point the weight sums' buffer, holding `xs0`, is left at `xs0` plus the row sums of this tile's
    weights: the one store into it covers it, and its loads read whole buffers. -/
theorem sumw_B (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay8 x0 x1 x3 xs2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x1) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-- At a middle point the weighted value sums' buffer, holding `xs1`, is left at `xs1` plus the product of this
    tile's weights with this tile's values. -/
theorem sumv_B (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay1 (k0_pay6 x2) (k0_pay9 x0 x1 x3 xs2) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero (S := S1024x512) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-! ## The last point of a row block: the same two steps, then the quotient is stored -/

theorem sumw_C (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay8 x0 x1 x3 xs2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x1) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

theorem sumv_C (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay1 (k0_pay6 x2) (k0_pay9 x0 x1 x3 xs2) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x512) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-- At the last point of a row block the output block is stored: the updated weighted value sums over the updated
    weight sums, both read back from the buffers just stored. -/
theorem out_C (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay2 (k0_pay1 (k0_pay6 x2) (k0_pay9 x0 x1 x3 xs2) xs1) (k0_pay8 x0 x1 x3 xs2 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero (S := S1024x512) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-! ## The first point of a row block: the buffers are reset, then stepped once -/

/-- The first point stores the block's squared row norms; the later points only read them. -/
theorem bsq_A (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay5 x0 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero (S := S1024x1) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-- The first point zeroes the weight sums, reads the zero back, and steps it once, with the squared row norms it has
    just stored. -/
theorem sumw_A (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay8 x0 x1 x3 (k0_pay5 x0) k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

/-- Likewise the weighted value sums: zeroed, read back, stepped once. -/
theorem sumv_A (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay1 (k0_pay6 x2) (k0_pay9 x0 x1 x3 (k0_pay5 x0)) k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x512) hz]
  simp only [View.readCov_unit_zero (S := S1024x1) _ hz, View.readCov_unit_zero (S := S1024x512) _ hz, View.readAt_eq_ld, harg2.read_unread, harg3.read_unread, harg4.read_unread, harg5.read_unread, harg7.read_unread, harg8.read_unread, harg9.read_unread, View.ld_unit_zero (S := S1024x512) hz, View.ld_unit_zero (S := S1x1024) hz, View.ld_unit_zero (S := S1024x1) hz]

end Cert.KnnPieces
end
-- ==== Proof.Steps.lean ====
/-
  What the three carried buffers and the output block hold after a grid point, from what they held after the point
  before: the per-case statements about one body run, placed on the grid's run of points.

  After point t the weight sums, the weighted value sums and the squared norms are
    • at the first tile of a row block (t mod 8 = 0): the squared norms of the point's query block; and the two sums
      stepped once from zero with those squared norms;
    • otherwise: the squared norms the point before left; and the two sums stepped from what the point before left;
  and at the last tile of a row block (t mod 8 = 7) the output block is the quotient of the two sums just stepped.
-/
import proofs.«138984_j41927470743575_2_alg».proof.Proof.Pieces

noncomputable section

open Idealize.ShloMosaic Idealize.ShloMosaic.TcCoe Idealize.SL.Sem

namespace Cert.KnnSteps

open Cert.KernelIdeal Cert.KernelIdeal.Gen

variable {F : FTy → Type} [FloatOps F]
variable (m : (ℓ : Loc nD τ sig) → Buf (Elt F) ℓ) (c : Dev nD)

/-- What the point before `t` left in the weight sums, -/
abbrev prevW (t : Fin cfg0.N) : Vec F S1024x1 .f32 :=
  (outsAt0 m c (t.val - 1) (Nat.lt_of_le_of_lt (Nat.sub_le _ _) t.isLt)).2.1
/-- in the weighted value sums, -/
abbrev prevV (t : Fin cfg0.N) : Vec F S1024x512 .f32 :=
  (outsAt0 m c (t.val - 1) (Nat.lt_of_le_of_lt (Nat.sub_le _ _) t.isLt)).2.2.1
/-- and in the squared norms. -/
abbrev prevN (t : Fin cfg0.N) : Vec F S1024x1 .f32 :=
  (outsAt0 m c (t.val - 1) (Nat.lt_of_le_of_lt (Nat.sub_le _ _) t.isLt)).2.2.2

/-! ## The first tile of a row block -/

theorem first_norms (t : Fin cfg0.N) (h0 : t.val % 8 = 0) (h1 : ¬t.val % 8 = 7) :
    (outsAt0 m c t.val t.isLt).2.2.2 = k0_pay5 (iblk m c 0 t) := by
  rw [outsAt0_A m c t h0 h1]
  dsimp only
  exact Cert.KnnPieces.bsq_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

theorem first_sumw (t : Fin cfg0.N) (h0 : t.val % 8 = 0) (h1 : ¬t.val % 8 = 7) :
    (outsAt0 m c t.val t.isLt).2.1 = k0_pay8 (iblk m c 0 t) (iblk m c 1 t) (iblk m c 3 t) (k0_pay5 (iblk m c 0 t)) k0_pay3 := by
  rw [outsAt0_A m c t h0 h1]
  dsimp only
  exact Cert.KnnPieces.sumw_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

theorem first_sumv (t : Fin cfg0.N) (h0 : t.val % 8 = 0) (h1 : ¬t.val % 8 = 7) :
    (outsAt0 m c t.val t.isLt).2.2.1 = k0_pay1 (k0_pay6 (iblk m c 2 t)) (k0_pay9 (iblk m c 0 t) (iblk m c 1 t) (iblk m c 3 t) (k0_pay5 (iblk m c 0 t))) k0_pay4 := by
  rw [outsAt0_A m c t h0 h1]
  dsimp only
  exact Cert.KnnPieces.sumv_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))

/-! ## The later tiles -/

theorem later_norms (t : Fin cfg0.N) (h0 : ¬t.val % 8 = 0) : (outsAt0 m c t.val t.isLt).2.2.2 = prevN m c t := by
  by_cases h1 : t.val % 8 = 7
  · rw [outsAt0_C m c t h0 h1]; rfl
  · rw [outsAt0_B m c t h0 h1]; rfl

theorem later_sumw (t : Fin cfg0.N) (h0 : ¬t.val % 8 = 0) :
    (outsAt0 m c t.val t.isLt).2.1 = k0_pay8 (iblk m c 0 t) (iblk m c 1 t) (iblk m c 3 t) (prevN m c t) (prevW m c t) := by
  by_cases h1 : t.val % 8 = 7
  · rw [outsAt0_C m c t h0 h1]
    dsimp only
    exact Cert.KnnPieces.sumw_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prevW m c t) (prevV m c t) (prevN m c t) (fun h => h0 ((hcond0_0 t).mp h)) ((hcond0_1 t).mpr h1)
  · rw [outsAt0_B m c t h0 h1]
    dsimp only
    exact Cert.KnnPieces.sumw_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prevW m c t) (prevV m c t) (prevN m c t) (fun h => h0 ((hcond0_0 t).mp h)) (fun h => h1 ((hcond0_1 t).mp h))

theorem later_sumv (t : Fin cfg0.N) (h0 : ¬t.val % 8 = 0) :
    (outsAt0 m c t.val t.isLt).2.2.1 = k0_pay1 (k0_pay6 (iblk m c 2 t)) (k0_pay9 (iblk m c 0 t) (iblk m c 1 t) (iblk m c 3 t) (prevN m c t)) (prevV m c t) := by
  by_cases h1 : t.val % 8 = 7
  · rw [outsAt0_C m c t h0 h1]
    dsimp only
    exact Cert.KnnPieces.sumv_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prevW m c t) (prevV m c t) (prevN m c t) (fun h => h0 ((hcond0_0 t).mp h)) ((hcond0_1 t).mpr h1)
  · rw [outsAt0_B m c t h0 h1]
    dsimp only
    exact Cert.KnnPieces.sumv_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prevW m c t) (prevV m c t) (prevN m c t) (fun h => h0 ((hcond0_0 t).mp h)) (fun h => h1 ((hcond0_1 t).mp h))

/-! ## The last tile: the output block -/

theorem last_out (t : Fin cfg0.N) (h0 : ¬t.val % 8 = 0) (h1 : t.val % 8 = 7) :
    (outsAt0 m c t.val t.isLt).1 = k0_pay2 ((outsAt0 m c t.val t.isLt).2.2.1) ((outsAt0 m c t.val t.isLt).2.1) := by
  rw [later_sumv m c t h0, later_sumw m c t h0, outsAt0_C m c t h0 h1]
  dsimp only
  exact Cert.KnnPieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (prevW m c t) (prevV m c t) (prevN m c t) (fun h => h0 ((hcond0_0 t).mp h)) ((hcond0_1 t).mpr h1)

end Cert.KnnSteps

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.Spec.lean ====
/-
  The function both programs compute, as one formula on the extended reals.

  For a query row p of `b` (4096 rows of 512 entries) and a key row n of `K` (8192 rows of 512 entries):
    ‖b_p‖² = Σ_k b[p,k]²,  ‖K_n‖² = Σ_k K[n,k]²,  ⟨b_p, K_n⟩ = Σ_k b[p,k]·K[n,k],
    d²(p,n) = max((‖b_p‖² + ‖K_n‖²) − 2·⟨b_p, K_n⟩, 0)       the squared distance by the expansion, clamped at zero,
    w(p,n)  = 1 / max(d²(p,n), ε)                               the inverse-squared-distance weight, ε the f32 nearest 1e-6,
  and the result is the weighted average of the value rows,
    out[p,d] = (Σ_n w(p,n)·V[n,d]) / (Σ_n w(p,n)).
  The constants 2, 0, ε and 1 are kept as the f32 words the two programs share; division is the extended reals'
  (`Ideal.div`). The sum over the 8192 keys is also written as 8 consecutive tiles of 1024 keys (`sum_tiles`): addition of
  extended reals is commutative and associative, so the regrouping needs no finiteness.
-/
import Idealize.ShloMosaic.PureOps.Ideal
import Idealize.ShloMosaic.PureOps.Ideal.Laws
import Idealize.ShloMosaic.Lib.ValueIdx
import proofs.«138984_j41927470743575_2_alg».proof.Proof.LibBlockSums

noncomputable section

namespace Cert.KnnSpec

open Idealize.ShloMosaic Idealize.ShloMosaic.ValueIdx

/-- An r × c array of extended reals, indexed as the programs index a rank-2 array. -/
abbrev Arr (r c : ℕ) : Type := (⟨2, ![r, c]⟩ : Shape).Idx → EReal

/-- The squared Euclidean norm of row `p`. -/
def rowSq {r c : ℕ} (x : Arr r c) (p : Fin r) : EReal := ∑ k : Fin c, x (ix2 p k) * x (ix2 p k)

/-- The inner product of row `p` of `x` with row `n` of `y`. -/
def rowDot {r s c : ℕ} (x : Arr r c) (y : Arr s c) (p : Fin r) (n : Fin s) : EReal :=
  ∑ k : Fin c, x (ix2 p k) * y (ix2 n k)

/-- The squared distance from the two squared norms and the inner product, clamped below at zero. -/
def sqDist (bsq ksq dot : EReal) : EReal :=
  max ((bsq + ksq) - Ideal.ofBits .f32 0x40000000#32 * dot) (Ideal.ofBits .f32 0x00000000#32)

/-- The weight of a clamped squared distance: its inverse, the distance first clamped below at ε. -/
def weightOf (d : EReal) : EReal :=
  Ideal.div (Ideal.ofBits .f32 0x3F800000#32) (max d (Ideal.ofBits .f32 0x358637BD#32))

/-- The weight of key `n` for query `p`. -/
def weight (b : Arr 4096 512) (K : Arr 8192 512) (p : Fin 4096) (n : Fin 8192) : EReal :=
  weightOf (sqDist (rowSq b p) (rowSq K n) (rowDot b K p n))

/-- The result at row `p`, column `d`: the weighted sum of the values over the sum of the weights. -/
def out (b : Arr 4096 512) (K V : Arr 8192 512) (p : Fin 4096) (d : Fin 512) : EReal :=
  Ideal.div (∑ n : Fin 8192, weight b K p n * V (ix2 n d)) (∑ n : Fin 8192, weight b K p n)

/-- The whole result array. -/
def G (b : Arr 4096 512) (K V : Arr 8192 512) : Arr 4096 512 := fun i => out b K V (i 0) (i 1)

theorem G_apply (b : Arr 4096 512) (K V : Arr 8192 512) (p : Fin 4096) (d : Fin 512) :
    G b K V (ix2 p d) = out b K V p d := rfl

/-- A clamped squared distance is nonnegative. -/
theorem sqDist_nonneg (bsq ksq dot : EReal) : 0 ≤ sqDist bsq ksq dot := by
  unfold sqDist
  rw [Ideal.ofBits_zero_f32]
  exact le_max_right _ _

/-- Key `q` of tile `s`: key number 1024·s + q. -/
def key (s : Fin 8) (q : Fin 1024) : Fin 8192 := ⟨s.val * 1024 + q.val, by have := s.isLt; have := q.isLt; omega⟩

theorem key_val (s : Fin 8) (q : Fin 1024) : (key s q).val = s.val * 1024 + q.val := rfl

/-- A sum over the 8192 keys is the sum over the 8 tiles of the sums over each tile's 1024 keys. -/
theorem sum_tiles (f : Fin 8192 → EReal) : ∑ n : Fin 8192, f n = ∑ s : Fin 8, ∑ q : Fin 1024, f (key s q) :=
  BlockSums.sum_blocks (by norm_num) key key_val f

/-- Row `r` of row-block `i`: row number 1024·i + r. -/
def row (i : Fin 4) (r : Fin 1024) : Fin 4096 := ⟨i.val * 1024 + r.val, by have := i.isLt; have := r.isLt; omega⟩

theorem row_val (i : Fin 4) (r : Fin 1024) : (row i r).val = i.val * 1024 + r.val := rfl

end Cert.KnnSpec

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.Payloads.lean ====
/-
  The kernel body's arithmetic read at one index, on the extended reals.

  For one grid point let x0 be the block of 1024 query rows, x1 the tile of 1024 keys, x2 the tile of 1024 value rows,
  x3 the tile's squared key norms (a row of 1024) and s the block's squared query norms (a column of 1024). Then, with
  r a query row of the block, q a key of the tile and d a column:
    squared norms        (r)    = Σ_k x0[r,k]²
    weights              (r, q) = 1 / max(max((s[r] + x3[q]) − 2·Σ_k x0[r,k]·x1[q,k], 0), ε)
    stepped weight sums  (r)    = acc[r] + Σ_q weights(r, q)
    stepped value sums   (r, d) = acc[r,d] + Σ_q weights(r, q)·x2[q,d]
    quotient             (r, d) = value sums[r,d] / weight sums[r]
  A change of float format is the identity on the extended reals, a lane reduction is the plain finite sum, and a matrix
  product into a zero accumulator is the sum over the contracted axis.
-/
import proofs.«138984_j41927470743575_2_alg».proof.Proof.Gen.KernelIdeal.Skeleton
import proofs.«138984_j41927470743575_2_alg».proof.Proof.Spec
import proofs.«138984_j41927470743575_2_alg».proof.Proof.LibMergedAxes
import Idealize.ShloMosaic.Lib.ValueIdx
import Idealize.ShloMosaic.Lib.ValueLayout
import Idealize.ShloMosaic.Lib.Pipeline.Value
import Idealize.ShloMosaic.PureOps.Ideal.Laws

noncomputable section

namespace Cert.KnnPayloads

open Cert.KernelIdeal Cert.KernelIdeal.Gen Idealize.ShloMosaic Idealize.ShloMosaic.ValueIdx Cert.KnnSpec

/-! ## Index bookkeeping: a lane sum's and a matrix product's operand indices, by coordinates -/

/-- Summing a [1024, 512] array over its second axis: the entry summed at row `r`, position `k` is `(r, k)`. -/
theorem lift_512 (h : S1024x512.Reduces [1] S1024) (r : Fin 1024) (k : Fin 512) : h.lift (ix1 r) k = ix2 r k :=
  funext fun a => Fin.ext (by match a with | ⟨0, _⟩ => rfl | ⟨1, _⟩ => rfl)

/-- Summing a [1024, 1024] array over its second axis: the entry summed at row `r`, position `q` is `(r, q)`. -/
theorem lift_1024 (h : S1024x1024.Reduces [1] S1024) (r : Fin 1024) (q : Fin 1024) : h.lift (ix1 r) q = ix2 r q :=
  funext fun a => Fin.ext (by match a with | ⟨0, _⟩ => rfl | ⟨1, _⟩ => rfl)

/-- The scores' product: operand indices by coordinates (its left operand's row is the output's row; its right
    operand's row is the output's column; both operands' columns are the contracted position). -/
theorem sc_lhs_0 (i : S1024x1024.Idx) (q : dot_S1024x512_S1024x512_S1024x1024_1_1_0_0_n_n.contr.Idx) : (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem sc_lhs_1 (i : S1024x1024.Idx) (q : dot_S1024x512_S1024x512_S1024x1024_1_1_0_0_n_n.contr.Idx) : (dot_S1024x512_S1024x512_S1024x1024_1_1_0_0_n_n.lhsIdx i q 1).val = (q ⟨0, by decide⟩).val :=
  dot_S1024x512_S1024x512_S1024x1024_1_1_0_0_n_n.lhsIdx_val_of_single rfl i q
theorem sc_rhs_0 (i : S1024x1024.Idx) (q : dot_S1024x512_S1024x512_S1024x1024_1_1_0_0_n_n.contr.Idx) : (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem sc_rhs_1 (i : S1024x1024.Idx) (q : dot_S1024x512_S1024x512_S1024x1024_1_1_0_0_n_n.contr.Idx) : (dot_S1024x512_S1024x512_S1024x1024_1_1_0_0_n_n.rhsIdx i q 1).val = (q ⟨0, by decide⟩).val :=
  dot_S1024x512_S1024x512_S1024x1024_1_1_0_0_n_n.rhsIdx_val_of_single rfl i q

/-- The weights-times-values product: the left operand's row is the output's row, the right operand's column the
    output's column; the left's column and the right's row are the contracted position. -/
theorem wv_lhs_0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem wv_lhs_1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem wv_rhs_0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem wv_rhs_1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The scores' product contracts the second axis of both operands: entry `(r, q)` pairs `x[r, k]` with `y[q, k]`. -/
theorem scores_apply (x y : FVec Ideal S1024x512 .bf16) (r q : Fin 1024) :
    matmul dot_S1024x512_S1024x512_S1024x1024_1_1_0_0_n_n none x y (constant S1024x1024 .f32 0x00000000#32) (ix2 r q)
      = ∑ k : Fin 512, x (ix2 r k) * y (ix2 q k) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r q) ((ValueIdx.contrEquiv1 dot_S1024x512_S1024x512_S1024x1024_1_1_0_0_n_n 512 rfl rfl).symm k) = ix2 r k := funext fun a => Fin.ext (by
    match a with
    | ⟨0, _⟩ => exact sc_lhs_0 _ _
    | ⟨1, _⟩ => exact (sc_lhs_1 _ _).trans hk)
  have er : dot_S1024x512_S1024x512_S1024x1024_1_1_0_0_n_n.rhsIdx (ix2 r q) ((ValueIdx.contrEquiv1 dot_S1024x512_S1024x512_S1024x1024_1_1_0_0_n_n 512 rfl rfl).symm k) = ix2 q k := funext fun a => Fin.ext (by
    match a with
    | ⟨0, _⟩ => exact sc_rhs_0 _ _
    | ⟨1, _⟩ => exact (sc_rhs_1 _ _).trans hk)
  rw [el, er]

/-- The weights-times-values product contracts the weights' second axis with the values' first: entry `(r, d)` pairs
    `w[r, q]` with `v[q, d]`. -/
theorem wv_apply (w : FVec Ideal S1024x1024 .bf16) (v : FVec Ideal S1024x512 .bf16) (r : Fin 1024) (d : Fin 512) :
    matmul dot_S1024x1024_S1024x512_S1024x512_1_0_0_1_n_n none w v (constant S1024x512 .f32 0x00000000#32) (ix2 r d)
      = ∑ q : Fin 1024, w (ix2 r q) * v (ix2 q d) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r d) ((ValueIdx.contrEquiv1 dot_S1024x1024_S1024x512_S1024x512_1_0_0_1_n_n 1024 rfl rfl).symm k) = ix2 r k := funext fun a => Fin.ext (by
    match a with
    | ⟨0, _⟩ => exact wv_lhs_0 _ _
    | ⟨1, _⟩ => exact (wv_lhs_1 _ _).trans hk)
  have er : dot_S1024x1024_S1024x512_S1024x512_1_0_0_1_n_n.rhsIdx (ix2 r d) ((ValueIdx.contrEquiv1 dot_S1024x1024_S1024x512_S1024x512_1_0_0_1_n_n 1024 rfl rfl).symm k) = ix2 k d := funext fun a => Fin.ext (by
    match a with
    | ⟨0, _⟩ => exact (wv_rhs_0 _ _).trans hk
    | ⟨1, _⟩ => exact wv_rhs_1 _ _)
  rw [el, er]

/-- A lane sum of a [1024, 512] array kept as a column: at `(r, ·)` the sum of row `r`. -/
theorem rowsum_512 (v : FVec Ideal S1024x512 .f32) (h : S1024x512.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction .add [1] S1024 v 0x00000000#32 h hφ hacc) hc (ix2 r u) = ∑ k : Fin 512, v (ix2 r k) := by
  refine (Cert.LibMergedAxes.shapeCast_a_a1_apply _ hc r u).trans ?_
  refine (Ideal.multiReduction_add_single v 0x00000000#32 h hφ hacc (ix1 r)).trans ?_
  exact Finset.sum_congr rfl fun k _ => congrArg v (lift_512 h r k)

/-- A lane sum of a [1024, 1024] array kept as a column: at `(r, ·)` the sum of row `r`. -/
theorem rowsum_1024 (v : FVec Ideal S1024x1024 .f32) (h : S1024x1024.Reduces [1] S1024) (hφ : FKind.Formats .f32)
    (hacc : (0x00000000#32 : BitVec 32) = FKind.add.neutral .f32 hφ) (hc : S1024.ShapeCasts S1024x1) (r : Fin 1024) (u : Fin 1) :
    shapeCast S1024x1 (multiReduction .add [1] S1024 v 0x00000000#32 h hφ hacc) hc (ix2 r u) = ∑ q : Fin 1024, v (ix2 r q) := by
  refine (Cert.LibMergedAxes.shapeCast_a_a1_apply _ hc r u).trans ?_
  refine (Ideal.multiReduction_add_single v 0x00000000#32 h hφ hacc (ix1 r)).trans ?_
  exact Finset.sum_congr rfl fun q _ => congrArg v (lift_1024 h r q)

/-! ## The payloads -/

/-- The squared norms of the block's query rows. -/
theorem sqnorm_apply (x0 : FVec Ideal S1024x512 .f32) (r : Fin 1024) (u : Fin 1) :
    k0_pay5 (F := Ideal) x0 (ix2 r u) = rowSq x0 r := by
  unfold k0_pay5
  try dsimp only
  rw [shapeCast_self]
  exact rowsum_512 _ _ _ _ _ r u

/-- The weights of the tile's keys for the block's queries. -/
theorem weights_apply (x0 : FVec Ideal S1024x512 .f32) (x1 : FVec Ideal S1024x512 .bf16) (x3 : FVec Ideal S1x1024 .f32)
    (s : FVec Ideal S1024x1 .f32) (r q : Fin 1024) :
    k0_pay7 (F := Ideal) x0 x1 x3 s (ix2 r q)
      = weightOf (sqDist (s (ix2 r (0 : Fin 1))) (x3 (ix2 (0 : Fin 1) q)) (rowDot x0 x1 r q)) := by
  unfold k0_pay7
  try dsimp only
  rw [shapeCast_self, shapeCast_self]
  simp only [divf_apply, maximumf_apply, subf_apply, addf_apply, mulf_apply, broadcast_apply]
  rw [Cert.LibMergedAxes.broadcastTo_a1_ab_apply, broadcastTo_1b_ab_apply, scores_apply]
  rfl

/-- The stepped weight sums. -/
theorem sumw_apply (x0 : FVec Ideal S1024x512 .f32) (x1 : FVec Ideal S1024x512 .bf16) (x3 : FVec Ideal S1x1024 .f32)
    (s acc : FVec Ideal S1024x1 .f32) (r : Fin 1024) (u : Fin 1) :
    k0_pay8 (F := Ideal) x0 x1 x3 s acc (ix2 r u) = acc (ix2 r u) + ∑ q : Fin 1024, k0_pay7 (F := Ideal) x0 x1 x3 s (ix2 r q) := by
  unfold k0_pay8
  try dsimp only
  rw [shapeCast_self]
  simp only [addf_apply]
  exact congrArg (acc (ix2 r u) + ·) (rowsum_1024 _ _ _ _ _ r u)

/-- The stepped weighted value sums. -/
theorem sumv_apply (x0 : FVec Ideal S1024x512 .f32) (x1 x2 : FVec Ideal S1024x512 .bf16) (x3 : FVec Ideal S1x1024 .f32)
    (s : FVec Ideal S1024x1 .f32) (acc : FVec Ideal S1024x512 .f32) (r : Fin 1024) (d : Fin 512) :
    k0_pay1 (F := Ideal) (k0_pay6 x2) (k0_pay9 x0 x1 x3 s) acc (ix2 r d)
      = acc (ix2 r d) + ∑ q : Fin 1024, k0_pay7 (F := Ideal) x0 x1 x3 s (ix2 r q) * x2 (ix2 q d) := by
  unfold k0_pay1 k0_pay6 k0_pay9
  try dsimp only
  rw [shapeCast_self, shapeCast_self]
  simp only [addf_apply]
  exact congrArg (acc (ix2 r d) + ·) (wv_apply _ _ r d)

/-- The quotient stored as the output block. -/
theorem quot_apply (sv : FVec Ideal S1024x512 .f32) (sw : FVec Ideal S1024x1 .f32) (r : Fin 1024) (d : Fin 512) :
    k0_pay2 (F := Ideal) sv sw (ix2 r d) = Ideal.div (sv (ix2 r d)) (sw (ix2 r (0 : Fin 1))) := by
  unfold k0_pay2
  try dsimp only
  simp only [divf_apply]
  rw [Cert.LibMergedAxes.broadcastTo_a1_ab_apply]

/-- The zero column the weight sums are reset to. -/
theorem zerow_apply (r : Fin 1024) (u : Fin 1) : k0_pay3 (F := Ideal) (ix2 r u) = 0 := by
  unfold k0_pay3
  try dsimp only
  rw [shapeCast_self]
  exact Ideal.ofBits_zero_f32

/-- The zero block the weighted value sums are reset to. -/
theorem zerov_apply (r : Fin 1024) (d : Fin 512) : k0_pay4 (F := Ideal) (ix2 r d) = 0 := by
  unfold k0_pay4
  try dsimp only
  rw [shapeCast_self]
  exact Ideal.ofBits_zero_f32

end Cert.KnnPayloads

end
-- ==== Proof.TileSums.lean ====
/-
  Sums over the key tiles taken one tile at a time.

  The kernel meets the 8192 keys as 8 tiles of 1024. After tiles 0 … j a running sum holds the partial sum of the
  tiles' contributions; after the last tile, the whole sum, which regrouped is the sum over all 8192 keys. The weight
  is written here as the kernel finds its ingredients: the squared key norms come precomputed as one row.
-/
import proofs.«138984_j41927470743575_2_alg».proof.Proof.Spec

noncomputable section

namespace Cert.KnnSums

open Idealize.ShloMosaic Idealize.ShloMosaic.ValueIdx Cert.KnnSpec

/-- The weight of key `n` for query `p` from the queries `B`, the keys `Kb` and a row `Ks` of squared key norms. -/
def wgt (B : Arr 4096 512) (Kb : Arr 8192 512) (Ks : Arr 1 8192) (p : Fin 4096) (n : Fin 8192) : EReal :=
  weightOf (sqDist (rowSq B p) (Ks (ix2 (0 : Fin 1) n)) (rowDot B Kb p n))

/-- When the row of squared key norms is the keys' squared norms, this is the specification's weight. -/
theorem wgt_eq (B : Arr 4096 512) (Kb : Arr 8192 512) (Ks : Arr 1 8192) (hK : ∀ n, Ks (ix2 (0 : Fin 1) n) = rowSq Kb n)
    (p : Fin 4096) (n : Fin 8192) : wgt B Kb Ks p n = weight B Kb p n := by
  unfold wgt weight
  rw [hK]

/-- The partial sum of per-tile contributions `f` over tiles 0 … j. -/
def part (f : Fin 8 → EReal) (j : ℕ) (hj : j < 8) : EReal := ∑ s : Fin (j + 1), f ⟨s.val, by have := s.isLt; omega⟩

theorem part_zero (f : Fin 8 → EReal) (h : 0 < 8) : part f 0 h = f ⟨0, h⟩ := by
  unfold part
  rw [Fin.sum_univ_one]
  rfl

theorem part_succ (f : Fin 8 → EReal) (j : ℕ) (hj : j + 1 < 8) :
    part f (j + 1) hj = part f j (Nat.lt_of_succ_lt hj) + f ⟨j + 1, hj⟩ := by
  unfold part
  rw [Fin.sum_univ_castSucc]
  rfl

/-- After the last tile the partial sum is the whole sum over the tiles. -/
theorem part_last (f : Fin 8 → EReal) (h : 7 < 8) : part f 7 h = ∑ s : Fin 8, f s := by
  unfold part
  exact Finset.sum_congr rfl fun s _ => rfl

/-- … which, when tile `s` contributes the sum of `w` over its keys, is the sum of `w` over all keys. -/
theorem part_last_keys (w : Fin 8192 → EReal) (h : 7 < 8) :
    part (fun s => ∑ q : Fin 1024, w (key s q)) 7 h = ∑ n : Fin 8192, w n := by
  rw [part_last, sum_tiles]

end Cert.KnnSums

end
-- ==== Proof.TileStep.lean ====
/-
  One grid point's arithmetic in coordinates of the whole arrays.

  Suppose the blocks a point loads are the rows 1024·i … of the queries `B`, the rows 1024·j … of the keys `Kb` and of
  the values `Vb`, and the columns 1024·j … of the row `Ks` of squared key norms, and that the column `s` it reads holds
  the squared norms of the block's queries. Then the block's squared norms are the queries' squared norms, the point's
  weights are the weights `wgt` of keys 1024·j + q for queries 1024·i + r, and its two steps add tile j's contribution to
  the weight sums and to the weighted value sums.
-/
import proofs.«138984_j41927470743575_2_alg».proof.Proof.Payloads
import proofs.«138984_j41927470743575_2_alg».proof.Proof.TileSums

noncomputable section

namespace Cert.KnnTile

open Cert.KernelIdeal Cert.KernelIdeal.Gen Idealize.ShloMosaic Idealize.ShloMosaic.ValueIdx Cert.KnnSpec Cert.KnnSums
  Cert.KnnPayloads

variable (B : Arr 4096 512) (Kb Vb : Arr 8192 512) (Ks : Arr 1 8192) (i : Fin 4) (j : Fin 8)
  (x0 : FVec Ideal S1024x512 .f32) (x1 x2 : FVec Ideal S1024x512 .bf16) (x3 : FVec Ideal S1x1024 .f32)
  (s : FVec Ideal S1024x1 .f32)

/-- The block's squared norms are the queries'. -/
theorem tile_sqnorm (h0 : ∀ r k, x0 (ix2 r k) = B (ix2 (row i r) k)) (r : Fin 1024) (u : Fin 1) :
    k0_pay5 (F := Ideal) x0 (ix2 r u) = rowSq B (row i r) := by
  rw [sqnorm_apply]
  unfold rowSq
  exact Finset.sum_congr rfl fun k _ => by rw [h0]

/-- The point's weights are the weights of the tile's keys for the block's queries. -/
theorem tile_weight (h0 : ∀ r k, x0 (ix2 r k) = B (ix2 (row i r) k)) (h1 : ∀ q k, x1 (ix2 q k) = Kb (ix2 (key j q) k))
    (h3 : ∀ q, x3 (ix2 (0 : Fin 1) q) = Ks (ix2 (0 : Fin 1) (key j q)))
    (hs : ∀ r, s (ix2 r (0 : Fin 1)) = rowSq B (row i r)) (r q : Fin 1024) :
    k0_pay7 (F := Ideal) x0 x1 x3 s (ix2 r q) = wgt B Kb Ks (row i r) (key j q) := by
  have e : rowDot x0 x1 r q = rowDot B Kb (row i r) (key j q) := by
    unfold rowDot
    exact Finset.sum_congr rfl fun k _ => by rw [h0, h1]
  rw [weights_apply, hs, h3, e]
  rfl

/-- The weight sums' step adds tile j's weights. -/
theorem tile_sumw (h0 : ∀ r k, x0 (ix2 r k) = B (ix2 (row i r) k)) (h1 : ∀ q k, x1 (ix2 q k) = Kb (ix2 (key j q) k))
    (h3 : ∀ q, x3 (ix2 (0 : Fin 1) q) = Ks (ix2 (0 : Fin 1) (key j q)))
    (hs : ∀ r, s (ix2 r (0 : Fin 1)) = rowSq B (row i r)) (acc : FVec Ideal S1024x1 .f32) (r : Fin 1024) (u : Fin 1) :
    k0_pay8 (F := Ideal) x0 x1 x3 s acc (ix2 r u) = acc (ix2 r u) + ∑ q : Fin 1024, wgt B Kb Ks (row i r) (key j q) := by
  rw [sumw_apply]
  exact congrArg (acc (ix2 r u) + ·) (Finset.sum_congr rfl fun q _ => tile_weight B Kb Ks i j x0 x1 x3 s h0 h1 h3 hs r q)

/-- The weighted value sums' step adds tile j's weighted values. -/
theorem tile_sumv (h0 : ∀ r k, x0 (ix2 r k) = B (ix2 (row i r) k)) (h1 : ∀ q k, x1 (ix2 q k) = Kb (ix2 (key j q) k))
    (h2 : ∀ q d, x2 (ix2 q d) = Vb (ix2 (key j q) d))
    (h3 : ∀ q, x3 (ix2 (0 : Fin 1) q) = Ks (ix2 (0 : Fin 1) (key j q)))
    (hs : ∀ r, s (ix2 r (0 : Fin 1)) = rowSq B (row i r)) (acc : FVec Ideal S1024x512 .f32) (r : Fin 1024) (d : Fin 512) :
    k0_pay1 (F := Ideal) (k0_pay6 x2) (k0_pay9 x0 x1 x3 s) acc (ix2 r d)
      = acc (ix2 r d) + ∑ q : Fin 1024, wgt B Kb Ks (row i r) (key j q) * Vb (ix2 (key j q) d) := by
  rw [sumv_apply]
  exact congrArg (acc (ix2 r d) + ·) (Finset.sum_congr rfl fun q _ => by
    rw [tile_weight B Kb Ks i j x0 x1 x3 s h0 h1 h3 hs r q, h2])

end Cert.KnnTile

end
-- ==== Proof.Blocks.lean ====
/-
  The blocks the pipeline hands the body at a grid point, read at coordinates of the whole arrays.

  The 32 grid points are numbered row block by row block: point t is row block t / 8, key tile t mod 8. At point t
    • the query window holds rows 1024·(t/8) … of `b`,
    • the key and value windows hold rows 1024·(t mod 8) … of the keys and of the values,
    • the squared-key-norm window holds columns 1024·(t mod 8) … of the row of squared key norms,
    • the output window is rows 1024·(t/8) … of the result.
  A block's coordinate is always (block index) × (block size) + (coordinate inside the block).
-/
import proofs.«138984_j41927470743575_2_alg».proof.Proof.Gen.KernelIdeal.Frame
import proofs.«138984_j41927470743575_2_alg».proof.Proof.Spec
import Idealize.ShloMosaic.Lib.ValueIdx
import Idealize.ShloMosaic.Lib.Pipeline.Value

noncomputable section

open Idealize.ShloMosaic Idealize.ShloMosaic.TcCoe Idealize.SL.Sem

namespace Cert.KnnBlocks

open Cert.KernelIdeal Cert.KernelIdeal.Gen Idealize.ShloMosaic.ValueIdx Cert.KnnSpec

variable (m : (ℓ : Loc nD τ sig) → Buf (Elt Ideal) ℓ) (c : Dev nD)

/-! ## The index maps, decided once over the grid -/

theorem index_q : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)
theorem index_k : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)
theorem index_v : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem index_n : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem index_o : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-! ## The input blocks at coordinates of the whole arrays -/

/-- The query block at point `t`, row block `i = t / 8`: entry `(r, k)` is `b[1024·i + r, k]`. -/
theorem queries_apply (t : Fin cfg0.N) (i : Fin 4) (hi : i.val = t.val / 8) (r : Fin 1024) (k : Fin 512) :
    (iblk m c 0 t : S1024x512.Idx → EReal) (ix2 r k) = (V m c main_arg0 : S4096x512.Idx → EReal) (ix2 (row i r) k) := by
  unfold iblk
  rw [View.read_apply]
  show (V m c main_arg0 : S4096x512.Idx → EReal) _ = (V m c main_arg0 : S4096x512.Idx → EReal) _
  congr 1
  funext a
  apply Fin.ext
  match a with
  | ⟨0, _⟩ => show win0_0.index t 0 * 1024 + 1 * r.val = i.val * 1024 + r.val; rw [(index_q t).1, hi]; omega
  | ⟨1, _⟩ => show win0_0.index t 1 * 512 + 1 * k.val = k.val; rw [(index_q t).2]; omega

/-- The key block at point `t`, tile `j = t mod 8`: entry `(q, k)` is key `1024·j + q`'s entry `k`. -/
theorem keys_apply (t : Fin cfg0.N) (j : Fin 8) (hj : j.val = t.val % 8) (q : Fin 1024) (k : Fin 512) :
    (iblk m c 1 t : S1024x512.Idx → EReal) (ix2 q k) = (V m c main_v0 : S8192x512.Idx → EReal) (ix2 (key j q) k) := by
  unfold iblk
  rw [View.read_apply]
  show (V m c main_v0 : S8192x512.Idx → EReal) _ = (V m c main_v0 : S8192x512.Idx → EReal) _
  congr 1
  funext a
  apply Fin.ext
  match a with
  | ⟨0, _⟩ => show win0_1.index t 0 * 1024 + 1 * q.val = j.val * 1024 + q.val; rw [(index_k t).1, hj]; omega
  | ⟨1, _⟩ => show win0_1.index t 1 * 512 + 1 * k.val = k.val; rw [(index_k t).2]; omega

/-- The value block at point `t`, tile `j = t mod 8`: entry `(q, d)` is value row `1024·j + q`'s entry `d`. -/
theorem values_apply (t : Fin cfg0.N) (j : Fin 8) (hj : j.val = t.val % 8) (q : Fin 1024) (d : Fin 512) :
    (iblk m c 2 t : S1024x512.Idx → EReal) (ix2 q d) = (V m c main_v1 : S8192x512.Idx → EReal) (ix2 (key j q) d) := by
  unfold iblk
  rw [View.read_apply]
  show (V m c main_v1 : S8192x512.Idx → EReal) _ = (V m c main_v1 : S8192x512.Idx → EReal) _
  congr 1
  funext a
  apply Fin.ext
  match a with
  | ⟨0, _⟩ => show win0_2.index t 0 * 1024 + 1 * q.val = j.val * 1024 + q.val; rw [(index_v t).1, hj]; omega
  | ⟨1, _⟩ => show win0_2.index t 1 * 512 + 1 * d.val = d.val; rw [(index_v t).2]; omega

/-- The squared-key-norm block at point `t`, tile `j = t mod 8`: entry `(0, q)` is the squared norm of key `1024·j + q`. -/
theorem norms_apply (t : Fin cfg0.N) (j : Fin 8) (hj : j.val = t.val % 8) (q : Fin 1024) :
    (iblk m c 3 t : S1x1024.Idx → EReal) (ix2 (0 : Fin 1) q) = (V m c main_v5 : S1x8192.Idx → EReal) (ix2 (0 : Fin 1) (key j q)) := by
  unfold iblk
  rw [View.read_apply]
  show (V m c main_v5 : S1x8192.Idx → EReal) _ = (V m c main_v5 : S1x8192.Idx → EReal) _
  congr 1
  funext a
  apply Fin.ext
  match a with
  | ⟨0, _⟩ => show win0_3.index t 0 * 1 + 1 * 0 = 0; rw [(index_n t).1]
  | ⟨1, _⟩ => show win0_3.index t 1 * 1024 + 1 * q.val = j.val * 1024 + q.val; rw [(index_n t).2, hj]; omega

end Cert.KnnBlocks

end
-- ==== Proof.Invariant.lean ====
/-
  What the three carried buffers hold after every grid point, in closed form, by induction along a row block's tiles.

  Write the arrays the call finds as: the queries B, the keys K', the values V', and the row N of squared key norms. After
  point 8·i + j (row block i, tile j), for each query row r of the block:
    squared norms (r)    = ‖B_{1024·i + r}‖²,
    weight sums   (r)    = Σ_{tiles s ≤ j} Σ_q w(1024·i + r, 1024·s + q),
    value sums    (r, d) = Σ_{tiles s ≤ j} Σ_q w(1024·i + r, 1024·s + q) · V'[1024·s + q, d],
  with w the weight computed from B, K' and N. At tile 0 the sums start from the zero they were reset to (0 + x = x); each
  later tile adds its own contribution to what the tile before left, which is the induction step.
-/
import proofs.«138984_j41927470743575_2_alg».proof.Proof.Steps
import proofs.«138984_j41927470743575_2_alg».proof.Proof.TileStep
import proofs.«138984_j41927470743575_2_alg».proof.Proof.Blocks

noncomputable section

open Idealize.ShloMosaic Idealize.ShloMosaic.TcCoe Idealize.SL.Sem

namespace Cert.KnnInv

open Cert.KernelIdeal Cert.KernelIdeal.Gen Idealize.ShloMosaic.ValueIdx Cert.KnnSpec Cert.KnnSums Cert.KnnSteps

variable (m : (ℓ : Loc nD τ sig) → Buf (Elt Ideal) ℓ) (c : Dev nD)

/-- The queries, the keys, the values and the row of squared key norms, as the call finds them. -/
abbrev Bq : Arr 4096 512 := (V m c main_arg0 : S4096x512.Idx → EReal)
abbrev Kq : Arr 8192 512 := (V m c main_v0 : S8192x512.Idx → EReal)
abbrev Vq : Arr 8192 512 := (V m c main_v1 : S8192x512.Idx → EReal)
abbrev Kn : Arr 1 8192 := (V m c main_v5 : S1x8192.Idx → EReal)

/-- Tile `s`'s contribution to the weight sum of query `p`, -/
def tileW (p : Fin 4096) (s : Fin 8) : EReal := ∑ q : Fin 1024, wgt (Bq m c) (Kq m c) (Kn m c) p (key s q)
/-- and to its weighted value sum at column `d`. -/
def tileV (p : Fin 4096) (d : Fin 512) (s : Fin 8) : EReal :=
  ∑ q : Fin 1024, wgt (Bq m c) (Kq m c) (Kn m c) p (key s q) * Vq m c (ix2 (key s q) d)

theorem carried (i : Fin 4) : ∀ (j : ℕ) (hj : j < 8) (t : Fin cfg0.N), t.val = 8 * i.val + j →
    (∀ r : Fin 1024, (outsAt0 m c t.val t.isLt).2.2.2 (ix2 r (0 : Fin 1)) = rowSq (Bq m c) (row i r)) ∧
    (∀ (r : Fin 1024) (u : Fin 1), (outsAt0 m c t.val t.isLt).2.1 (ix2 r u) = part (tileW m c (row i r)) j hj) ∧
    (∀ (r : Fin 1024) (d : Fin 512), (outsAt0 m c t.val t.isLt).2.2.1 (ix2 r d) = part (tileV m c (row i r) d) j hj)
  | 0, hj, t, ht => by
    have h0 : t.val % 8 = 0 := by omega
    have h1 : ¬t.val % 8 = 7 := by omega
    have hi : i.val = t.val / 8 := by omega
    have hjt : (⟨0, hj⟩ : Fin 8).val = t.val % 8 := by show 0 = _; omega
    have hq := fun r k => Cert.KnnBlocks.queries_apply m c t i hi r k
    have hk := fun q k => Cert.KnnBlocks.keys_apply m c t ⟨0, hj⟩ hjt q k
    have hv := fun q d => Cert.KnnBlocks.values_apply m c t ⟨0, hj⟩ hjt q d
    have hn := fun q => Cert.KnnBlocks.norms_apply m c t ⟨0, hj⟩ hjt q
    have hs : ∀ r : Fin 1024, k0_pay5 (F := Ideal) (iblk m c 0 t) (ix2 r (0 : Fin 1)) = rowSq (Bq m c) (row i r) :=
      fun r => Cert.KnnTile.tile_sqnorm (Bq m c) i (iblk m c 0 t) hq r 0
    refine ⟨fun r => ?_, fun r u => ?_, fun r d => ?_⟩
    · exact (congrFun (first_norms m c t h0 h1) (ix2 r (0 : Fin 1))).trans (hs r)
    · refine (congrFun (first_sumw m c t h0 h1) (ix2 r u)).trans ?_
      refine (Cert.KnnTile.tile_sumw (Bq m c) (Kq m c) (Kn m c) i ⟨0, hj⟩ (iblk m c 0 t) (iblk m c 1 t) (iblk m c 3 t)
        (k0_pay5 (iblk m c 0 t)) hq hk hn hs k0_pay3 r u).trans ?_
      rw [Cert.KnnPayloads.zerow_apply, zero_add, part_zero]
      rfl
    · refine (congrFun (first_sumv m c t h0 h1) (ix2 r d)).trans ?_
      refine (Cert.KnnTile.tile_sumv (Bq m c) (Kq m c) (Vq m c) (Kn m c) i ⟨0, hj⟩ (iblk m c 0 t) (iblk m c 1 t) (iblk m c 2 t) (iblk m c 3 t)
        (k0_pay5 (iblk m c 0 t)) hq hk hv hn hs k0_pay4 r d).trans ?_
      rw [Cert.KnnPayloads.zerov_apply, zero_add, part_zero]
      rfl
  | j + 1, hj, t, ht => by
    have hN : cfg0.N = 32 := N_0
    have hlt := t.isLt
    have h0 : ¬t.val % 8 = 0 := by omega
    have hi : i.val = t.val / 8 := by omega
    have hjt : (⟨j + 1, hj⟩ : Fin 8).val = t.val % 8 := by show j + 1 = _; omega
    obtain ⟨ihN, ihW, ihV⟩ := carried i j (Nat.lt_of_succ_lt hj) ⟨t.val - 1, by omega⟩ (by show t.val - 1 = _; omega)
    have hq := fun r k => Cert.KnnBlocks.queries_apply m c t i hi r k
    have hk := fun q k => Cert.KnnBlocks.keys_apply m c t ⟨j + 1, hj⟩ hjt q k
    have hv := fun q d => Cert.KnnBlocks.values_apply m c t ⟨j + 1, hj⟩ hjt q d
    have hn := fun q => Cert.KnnBlocks.norms_apply m c t ⟨j + 1, hj⟩ hjt q
    have hs : ∀ r : Fin 1024, prevN m c t (ix2 r (0 : Fin 1)) = rowSq (Bq m c) (row i r) := ihN
    refine ⟨fun r => ?_, fun r u => ?_, fun r d => ?_⟩
    · exact (congrFun (later_norms m c t h0) (ix2 r (0 : Fin 1))).trans (hs r)
    · refine (congrFun (later_sumw m c t h0) (ix2 r u)).trans ?_
      refine (Cert.KnnTile.tile_sumw (Bq m c) (Kq m c) (Kn m c) i ⟨j + 1, hj⟩ (iblk m c 0 t) (iblk m c 1 t) (iblk m c 3 t)
        (prevN m c t) hq hk hn hs (prevW m c t) r u).trans ?_
      rw [part_succ]
      exact congrArg (· + tileW m c (row i r) ⟨j + 1, hj⟩) (ihW r u)
    · refine (congrFun (later_sumv m c t h0) (ix2 r d)).trans ?_
      refine (Cert.KnnTile.tile_sumv (Bq m c) (Kq m c) (Vq m c) (Kn m c) i ⟨j + 1, hj⟩ (iblk m c 0 t) (iblk m c 1 t) (iblk m c 2 t) (iblk m c 3 t)
        (prevN m c t) hq hk hv hn hs (prevV m c t) r d).trans ?_
      rw [part_succ]
      exact congrArg (· + tileV m c (row i r) d ⟨j + 1, hj⟩) (ihV r d)

end Cert.KnnInv

end
-- ==== Proof.HostPrefix.lean ====
/-
  What the kernel program's host operations leave in the arrays its region stages.

  Before the region is entered the program computes, from the key rows K and the value rows V:
    a copy of K and a copy of V in a narrower format — on the extended reals a format change is the identity, so the copies
    hold K and V themselves;
    the squared norms of the key rows, ‖K_n‖² = Σ_k K[n,k]·K[n,k] (a sum started from the zero word), laid out as a
    column of 8192 entries and then transposed into a row: the entry (0, n) of that row is ‖K_n‖².
-/
import proofs.«138984_j41927470743575_2_alg».proof.Proof.Gen.KernelIdeal.Frame
import proofs.«138984_j41927470743575_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KnnHost

open Cert.KernelIdeal Cert.KernelIdeal.Gen Idealize.ShloMosaic Idealize.ShloMosaic.TcCoe Idealize.ShloMosaic.ValueIdx Cert.KnnSpec

variable (m : (ℓ : Loc nD τ sig) → Buf (Elt Ideal) ℓ) (c : Dev nD)

/-- The narrowed copy of the key rows holds the key rows. -/
theorem keys_found (n : Fin 8192) (k : Fin 512) :
    (V m c main_v0 : S8192x512.Idx → EReal) (ix2 n k)
      = (m ((c : Thread nD τ).loc main_arg1) : S8192x512.Idx → EReal) (ix2 n k) := by
  have e : (V m c main_v0 : S8192x512.Idx → EReal)
      = (truncf (F := Ideal) .bf16 (m ((c : Thread nD τ).loc main_arg1)) bitsLt_bf16_f32 : S8192x512.Idx → EReal) := by
    dsimp only [Gen.V, Gen.hostOps0]; after_results
  rw [e]
  rfl

/-- The narrowed copy of the value rows holds the value rows. -/
theorem vals_found (n : Fin 8192) (d : Fin 512) :
    (V m c main_v1 : S8192x512.Idx → EReal) (ix2 n d)
      = (m ((c : Thread nD τ).loc main_arg2) : S8192x512.Idx → EReal) (ix2 n d) := by
  have e : (V m c main_v1 : S8192x512.Idx → EReal)
      = (truncf (F := Ideal) .bf16 (m ((c : Thread nD τ).loc main_arg2)) bitsLt_bf16_f32 : S8192x512.Idx → EReal) := by
    dsimp only [Gen.V, Gen.hostOps0]; after_results
  rw [e]
  rfl

/-- The row of squared key norms: its entry (0, n) is ‖K_n‖². The transpose reads the column at (n, 0); the column is
    the broadcast of the vector of sums, read at n; the sum is the zero word plus Σ_k K[n,k]·K[n,k]. -/
theorem ksq_found (n : Fin 8192) :
    (V m c main_v5 : S1x8192.Idx → EReal) (ix2 (0 : Fin 1) n) = rowSq (m ((c : Thread nD τ).loc main_arg1)) n := by
  have e : (V m c main_v5 : S1x8192.Idx → EReal)
      = transpose S1x8192 [1, 0] (broadcastInDim S8192x1 ![0] bcast_S8192_S8192x1_0
          (Host.reduceAdd (F := Ideal)
            (mulf (F := Ideal) (m ((c : Thread nD τ).loc main_arg1) : (⟨S8192x512, .f32⟩ : BufTy).Contents (Elt Ideal))
              (m ((c : Thread nD τ).loc main_arg1) : (⟨S8192x512, .f32⟩ : BufTy).Contents (Elt Ideal)))
            (constant (F := Ideal) S_ .f32 0x00000000#32) reducesTo_S8192x512_S8192_d1 h_S_))
          transposes_S8192x1_S1x8192_1_0 := by
    dsimp only [Gen.V, Gen.hostOps0]; after_results
  rw [e]
  generalize (m ((c : Thread nD τ).loc main_arg1) : (⟨S8192x512, .f32⟩ : BufTy).Contents (Elt Ideal)) = K
  rw [transpose_ix2_apply]
  refine (broadcastInDim_apply _ bcast_S8192_S8192x1_0 _ (ix2 n (0 : Fin 1)) (ix1 n) (fun a => match a with
    | ⟨0, _⟩ => by show n.val = if (8192 : Nat) = 1 then 0 else n.val; rw [if_neg (by decide)])).trans ?_
  simp only [Host.reduceAdd, Ideal.hostReduceAdd_def]
  rw [Ideal.hostReduceAdd_single reducesTo_S8192x512_S8192_d1 (by decide)]
  rw [constant_apply, Ideal.ofBits_zero_f32, zero_add]
  unfold rowSq
  show (_ : EReal) = _
  refine Finset.sum_congr rfl fun k _ => ?_
  rw [mulf_apply]
  have ei : (by decide : S8192x512.Reduces [1] S8192).lift (ix1 n) k = ix2 n k :=
    funext fun a => Fin.ext (by match a with | ⟨0, _⟩ => rfl | ⟨1, _⟩ => rfl)
  rw [ei]
  rfl

end Cert.KnnHost

end
-- ==== Proof.Cover.lean ====
/-
  The output's blocks cover the result array.

  The result array has 4096 rows of 512 entries; the output window's block at grid point t is the 1024 rows
  1024·(t / 8) … 1024·(t / 8) + 1023, all 512 columns; the pipeline writes the block back at the points t ≡ 7 (mod 8),
  the last key tile of each row block. So the entry (p, d) lies in the block of the point 8·(p / 1024) + 7, which is
  written back: 1024·(p / 1024) ≤ p < 1024·(p / 1024) + 1024, and every column is in every block.
-/
import proofs.«138984_j41927470743575_2_alg».proof.Proof.Blocks

noncomputable section

namespace Cert.KnnCover

open Cert.KernelIdeal Cert.KernelIdeal.Gen Idealize.ShloMosaic Idealize.ShloMosaic.TcCoe

/-- The output window's block has 1024 rows and 512 columns at every grid point (decided over the 32 points). -/
theorem xsize_o : ∀ t : Fin cfg0.N,
    win0_4.xsize (grid0.coords t) (0 : Fin 2) = 1024 ∧ win0_4.xsize (grid0.coords t) (1 : Fin 2) = 512 :=
  (by decide +kernel : ∀ t : Fin grid0.N,
    win0_4.xsize (grid0.coords t) (0 : Fin 2) = 1024 ∧ win0_4.xsize (grid0.coords t) (1 : Fin 2) = 512)

/-- The block size the window's offsets are multiples of: 1024 rows, 512 columns. -/
theorem size_o : win0_4.size (0 : Fin 2) = 1024 ∧ win0_4.size (1 : Fin 2) = 512 := ⟨rfl, rfl⟩

/-- An index of the result array is in point `t`'s block iff each coordinate is in the block's range on its axis. -/
theorem mem_blk (t : Fin cfg0.N) (i : S4096x512.Idx) :
    i ∈ ((cfg0.win 4).blk t).view.set
      ↔ ∀ a : Fin 2, win0_4.index t a * win0_4.size a ≤ (i a).val
          ∧ (i a).val < win0_4.index t a * win0_4.size a + win0_4.xsize (grid0.coords t) a := by
  show i ∈ ((View.whole main_v6).slice (win0_4.rect t)).set ↔ _
  rw [View.set_slice_whole, Rect.mem_set_unit]
  exact Iff.rfl

/-- Every entry (p, d) of the result array is in the block of the point 8·(p / 1024) + 7, which is written back. -/
theorem covered_ix (i : S4096x512.Idx) :
    ∃ t : Fin cfg0.N, (cfg0.win 4).flush t = true ∧ i ∈ ((cfg0.win 4).blk t).view.set := by
  have h0 : (i 0 : Nat) < 4096 := (i 0).isLt
  have h1 : (i 1 : Nat) < 512 := (i 1).isLt
  have hN : cfg0.N = 32 := N_0
  have ht : 8 * ((i 0 : Nat) / 1024) + 7 < cfg0.N := by rw [hN]; omega
  refine ⟨⟨8 * ((i 0 : Nat) / 1024) + 7, ht⟩, (flush0_4 _).mpr ?_, ?_⟩
  · show (8 * ((i 0 : Nat) / 1024) + 7) % 8 = 7
    omega
  · rw [mem_blk]
    obtain ⟨e0, e1⟩ := Cert.KnnBlocks.index_o ⟨8 * ((i 0 : Nat) / 1024) + 7, ht⟩
    obtain ⟨x0, x1⟩ := xsize_o ⟨8 * ((i 0 : Nat) / 1024) + 7, ht⟩
    intro a
    match a with
    | ⟨0, _⟩ =>
      show win0_4.index ⟨8 * ((i 0 : Nat) / 1024) + 7, ht⟩ (0 : Fin 2) * win0_4.size (0 : Fin 2) ≤ (i 0 : Nat)
        ∧ (i 0 : Nat) < win0_4.index ⟨8 * ((i 0 : Nat) / 1024) + 7, ht⟩ (0 : Fin 2) * win0_4.size (0 : Fin 2)
            + win0_4.xsize (grid0.coords ⟨8 * ((i 0 : Nat) / 1024) + 7, ht⟩) (0 : Fin 2)
      rw [e0, x0, size_o.1]
      show (8 * ((i 0 : Nat) / 1024) + 7) / 8 * 1024 ≤ (i 0 : Nat)
        ∧ (i 0 : Nat) < (8 * ((i 0 : Nat) / 1024) + 7) / 8 * 1024 + 1024
      omega
    | ⟨1, _⟩ =>
      show win0_4.index ⟨8 * ((i 0 : Nat) / 1024) + 7, ht⟩ (1 : Fin 2) * win0_4.size (1 : Fin 2) ≤ (i 1 : Nat)
        ∧ (i 1 : Nat) < win0_4.index ⟨8 * ((i 0 : Nat) / 1024) + 7, ht⟩ (1 : Fin 2) * win0_4.size (1 : Fin 2)
            + win0_4.xsize (grid0.coords ⟨8 * ((i 0 : Nat) / 1024) + 7, ht⟩) (1 : Fin 2)
      rw [e1, x1, size_o.2]
      omega

variable (c : Dev nD)

/-- The same, with the index typed as an index of the output window's array on core `c`. -/
theorem covered (i : ((cfg0.win 4).arr.view.loc (c.tc : Thread nD τ)).2.ty.Idx) :
    ∃ t : Fin cfg0.N, (cfg0.win 4).flush t = true ∧ i ∈ ((cfg0.win 4).blk t).view.set :=
  covered_ix i

end Cert.KnnCover

end
-- ==== Proof.KernelValue.lean ====
/-
  The result array of the idealized kernel's run is the specification of the argument arrays.

  The output block of row block i is written back once, after the row block's last tile (point 8·i + 7). What is
  written there is the quotient of the two running sums, which after the last tile are the whole sums over the 8192
  keys (the partial sums over all 8 tiles, regrouped). The arrays the call finds are the arguments themselves up to a
  change of float format, and the row of squared key norms is the keys' squared norms, so the weights are the
  specification's weights. The four write-backs cover the result array, so it ends holding the specification.
-/
import proofs.«138984_j41927470743575_2_alg».proof.Proof.Gen.KernelIdeal.Value
import proofs.«138984_j41927470743575_2_alg».proof.Proof.Invariant
import proofs.«138984_j41927470743575_2_alg».proof.Proof.HostPrefix
import proofs.«138984_j41927470743575_2_alg».proof.Proof.Cover

noncomputable section

open Idealize.ShloMosaic Idealize.ShloMosaic.TcCoe Idealize.SL.Sem
open Idealize.ShloMosaic.Pipeline (Dat)

namespace Cert.KnnKernel

open Cert.KernelIdeal Cert.KernelIdeal.Gen Idealize.ShloMosaic.ValueIdx Cert.KnnSpec Cert.KnnSums Cert.KnnSteps Cert.KnnInv

variable (m : (ℓ : Loc nD τ sig) → Buf (Elt Ideal) ℓ) (ρ : Dev nD → PrngReg) (c : Dev nD)

/-- The three argument arrays at launch. -/
abbrev argB : Arr 4096 512 := (m ((c : Thread nD τ).loc main_arg0) : S4096x512.Idx → EReal)
abbrev argK : Arr 8192 512 := (m ((c : Thread nD τ).loc main_arg1) : S8192x512.Idx → EReal)
abbrev argV : Arr 8192 512 := (m ((c : Thread nD τ).loc main_arg2) : S8192x512.Idx → EReal)

/-- The specification of the argument arrays, as contents of the result array. -/
abbrev result : Buf (Elt Ideal) ((c : Thread nD τ).loc main_v6) := G (argB m c) (argK m c) (argV m c)

/-- The queries the call finds are the argument. -/
theorem queries_found : Bq m c = argB m c := V_main_arg0 m c

/-- The weight computed from what the call finds is the specification's weight of the arguments. -/
theorem weight_found (p : Fin 4096) (n : Fin 8192) :
    wgt (Bq m c) (Kq m c) (Kn m c) p n = weight (argB m c) (argK m c) p n := by
  have e : rowDot (Bq m c) (Kq m c) p n = rowDot (argB m c) (argK m c) p n := by
    unfold rowDot
    exact Finset.sum_congr rfl fun k _ => by
      rw [queries_found m c]
      exact congrArg (argB m c (ix2 p k) * ·) (Cert.KnnHost.keys_found m c n k)
  unfold wgt weight
  rw [e, queries_found m c]
  exact congrArg (fun x => weightOf (sqDist (rowSq (argB m c) p) x (rowDot (argB m c) (argK m c) p n)))
    (Cert.KnnHost.ksq_found m c n)

/-- After a row block's last tile the weight sums are the whole sums of the weights, -/
theorem sumw_last (i : Fin 4) (t : Fin cfg0.N) (ht : t.val = 8 * i.val + 7) (r : Fin 1024) :
    (outsAt0 m c t.val t.isLt).2.1 (ix2 r (0 : Fin 1)) = ∑ n : Fin 8192, weight (argB m c) (argK m c) (row i r) n := by
  refine ((carried m c i 7 (by norm_num) t ht).2.1 r 0).trans ?_
  refine (part_last_keys (fun n => wgt (Bq m c) (Kq m c) (Kn m c) (row i r) n) (by norm_num)).trans ?_
  exact Finset.sum_congr rfl fun n _ => weight_found m c (row i r) n

/-- and the weighted value sums the whole weighted sums of the values. -/
theorem sumv_last (i : Fin 4) (t : Fin cfg0.N) (ht : t.val = 8 * i.val + 7) (r : Fin 1024) (d : Fin 512) :
    (outsAt0 m c t.val t.isLt).2.2.1 (ix2 r d)
      = ∑ n : Fin 8192, weight (argB m c) (argK m c) (row i r) n * argV m c (ix2 n d) := by
  refine ((carried m c i 7 (by norm_num) t ht).2.2 r d).trans ?_
  refine (part_last_keys (fun n => wgt (Bq m c) (Kq m c) (Kn m c) (row i r) n * Vq m c (ix2 n d)) (by norm_num)).trans ?_
  exact Finset.sum_congr rfl fun n _ => by
    rw [weight_found m c (row i r) n]
    exact congrArg (weight (argB m c) (argK m c) (row i r) n * ·) (Cert.KnnHost.vals_found m c n d)

/-- What a write-back writes is the specification read through the block. -/
theorem flushed_eq (t : Fin cfg0.N) (hf : (cfg0.win 4).flush t = true) :
    (dats m 0 c).flushed 4 t = ((cfg0.win 4).blk t).view.read (Elt Ideal) (result m c) := by
  have hN : cfg0.N = 32 := N_0
  have hlt := t.isLt
  have h7 : t.val % 8 = 7 := (flush0_4 t).mp hf
  have h0 : ¬t.val % 8 = 0 := by omega
  have hi : t.val / 8 < 4 := by omega
  have ht : t.val = 8 * (⟨t.val / 8, hi⟩ : Fin 4).val + 7 := by show t.val = 8 * (t.val / 8) + 7; omega
  funext y
  obtain ⟨r, d, rfl⟩ : ∃ (r : Fin 1024) (d : Fin 512), y = ix2 r d := ⟨y 0, y 1, eq_ix2 y⟩
  rw [Cert.KernelIdeal.Value.flushed4, View.read_apply]
  have eidx : ((cfg0.win 4).blk t).view.emb (ix2 r d) = ix2 (row ⟨t.val / 8, hi⟩ r) d := by
    funext a
    apply Fin.ext
    match a with
    | ⟨0, _⟩ => show win0_4.index t 0 * 1024 + 1 * r.val = t.val / 8 * 1024 + r.val; rw [(Cert.KnnBlocks.index_o t).1]; omega
    | ⟨1, _⟩ => show win0_4.index t 1 * 512 + 1 * d.val = d.val; rw [(Cert.KnnBlocks.index_o t).2]; omega
  rw [eidx]
  show (outsAt0 m c t.val t.isLt).1 (ix2 r d) = G (argB m c) (argK m c) (argV m c) (ix2 (row ⟨t.val / 8, hi⟩ r) d)
  rw [last_out m c t h0 h7, Cert.KnnPayloads.quot_apply, sumv_last m c ⟨t.val / 8, hi⟩ t ht r d,
    sumw_last m c ⟨t.val / 8, hi⟩ t ht r, G_apply]
  rfl

/-- So the result array ends holding the specification. -/
theorem final : (dats m 0 c).arrAt 4 cfg0.N = result m c :=
  (dats m 0 c).arrAt_eq_of_cover 4 (result m c) (flushed_eq m c) (Cert.KnnCover.covered c)

/-- The idealized kernel's run: every weakly fair execution terminates with the result array at the specification of
    the argument arrays, and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KnnKernel

end
-- ==== Proof.LibSqrtSquare.lean ====
/-
  The exact square root on the extended reals undoes squaring from the right side: for every extended real y ≥ 0,
  √y · √y = y. For y = +inf both sides are +inf (the square root of +inf is +inf, and +inf · +inf = +inf); for a real
  r ≥ 0 it is the real identity √r · √r = r; −inf is excluded by the hypothesis. A program that takes the square root of a
  quantity clamped below at zero and squares it again therefore computes the clamped quantity itself, with no finiteness
  assumption.
-/
import Idealize.ShloMosaic.PureOps.Ideal

noncomputable section

namespace Cert.LibSqrtSquare

open Idealize.ShloMosaic

/-- For an extended real `y ≥ 0`: `√y · √y = y`. For `y = +inf` both sides are `+inf`; for a real `r ≥ 0` it is
    `Real.mul_self_sqrt`; `-inf` is excluded by the hypothesis. -/
theorem sqrt_mul_self (y : EReal) (hy : 0 ≤ y) : Ideal.sqrt y * Ideal.sqrt y = y := by
  induction y using EReal.rec with
  | bot => exact absurd hy (by simp)
  | top => simp
  | coe r =>
    have hr : 0 ≤ r := by exact_mod_cast hy
    rw [Ideal.sqrt_coe, if_neg (not_lt.mpr hr), ← EReal.coe_mul, Real.mul_self_sqrt hr]

end Cert.LibSqrtSquare

end
-- ==== Proof.RefIsSpec.lean ====
/-
  The reference program computes the specification.

  The reference program is read one operation at a time. Its stages, for a query row p, a key row n and a column d:
    the squared norms  ‖b_p‖² = Σ_k b[p,k]·b[p,k]  and  ‖K_n‖² = Σ_k K[n,k]·K[n,k]  (a sum started from the zero word),
    both broadcast to the 4096 × 8192 grid; the inner product ⟨b_p, K_n⟩ = Σ_k b[p,k]·K[n,k] (a contraction with the
    transpose of K); the expansion (‖b_p‖² + ‖K_n‖²) − 2·⟨b_p, K_n⟩ clamped below at zero; its square root, multiplied
    by itself; the clamp below at ε; the inverse 1 / · ; the sum of the weights over the keys; the contraction of the
    weights with the value rows; the quotient of the two.
  Every stage is, syntactically, the corresponding piece of the specification, with one exception: the reference takes
  the square root of the clamped squared distance and squares it again. The clamped squared distance is nonnegative, and
  on the extended reals √y·√y = y for every y ≥ 0 (the infinite case included), so that step is the identity.
-/
import proofs.«138984_j41927470743575_2_alg».proof.Proof.Gen.ReferenceIdeal.Read
import proofs.«138984_j41927470743575_2_alg».proof.Proof.Spec
import proofs.«138984_j41927470743575_2_alg».proof.Proof.LibSqrtSquare

noncomputable section

namespace Cert.KnnRef

open Idealize.ShloMosaic Idealize.ShloMosaic.ValueIdx Cert.ReferenceIdeal Cert.ReferenceIdeal.Read Cert.KnnSpec

/-- The broadcast squared norm of the query row: at (p, n) it is ‖b_p‖², whatever n. -/
theorem bsq_apply (b : Arr 4096 512) (p : Fin 4096) (n : Fin 8192) :
    val_main_v6 (F := Ideal) b (ix2 p n) = rowSq b p := by
  rw [val_main_v6_apply, val_main_v2_apply, val_main_v1_apply, val_main_cst_apply]
  simp only [val_main_v0_apply, Ideal.ofBits_def, Ideal.mulf_def, Ideal.ofBits_zero_f32, zero_add]
  unfold rowSq
  refine Finset.sum_congr rfl fun k _ => ?_
  have e : idx_main_v1 (idx_main_v2 (idx_main_v6 (ix2 p n))) k = ix2 p k :=
    funext fun a => Fin.ext (by match a with | ⟨0, _⟩ => rfl | ⟨1, _⟩ => rfl)
  rw [e]

/-- The broadcast squared norm of the key row: at (p, n) it is ‖K_n‖², whatever p. -/
theorem ksq_apply (K : Arr 8192 512) (p : Fin 4096) (n : Fin 8192) :
    val_main_v7 (F := Ideal) K (ix2 p n) = rowSq K n := by
  rw [val_main_v7_apply, val_main_v5_apply, val_main_v4_apply, val_main_cst_0_apply]
  simp only [val_main_v3_apply, Ideal.ofBits_def, Ideal.mulf_def, Ideal.ofBits_zero_f32, zero_add]
  unfold rowSq
  refine Finset.sum_congr rfl fun k _ => ?_
  have e : idx_main_v4 (idx_main_v5 (idx_main_v7 (ix2 p n))) k = ix2 n k :=
    funext fun a => Fin.ext (by match a with | ⟨0, _⟩ => rfl | ⟨1, _⟩ => rfl)
  rw [e]

/-- The contraction of b with the transpose of K: at (p, n) it is the inner product ⟨b_p, K_n⟩. -/
theorem dot_apply (b : Arr 4096 512) (K : Arr 8192 512) (p : Fin 4096) (n : Fin 8192) :
    val_main_v10 (F := Ideal) b K (ix2 p n) = rowDot b K p n := by
  rw [val_main_v10_apply]
  unfold rowDot
  refine Finset.sum_congr rfl fun k _ => ?_
  rw [val_main_v9_apply]
  have el : lidx_main_v10 (ix2 p n) k = ix2 p k :=
    funext fun a => Fin.ext (by match a with | ⟨0, _⟩ => rfl | ⟨1, _⟩ => rfl)
  have er : idx_main_v9 (ridx_main_v10 (ix2 p n) k) = ix2 n k :=
    funext fun a => Fin.ext (by match a with | ⟨0, _⟩ => rfl | ⟨1, _⟩ => rfl)
  rw [el, er]

/-- The clamped squared distance: the expansion (‖b_p‖² + ‖K_n‖²) − 2·⟨b_p, K_n⟩, clamped below at the zero word. -/
theorem d2_apply (b : Arr 4096 512) (K : Arr 8192 512) (p : Fin 4096) (n : Fin 8192) :
    val_main_v15 (F := Ideal) b K (ix2 p n) = sqDist (rowSq b p) (rowSq K n) (rowDot b K p n) := by
  rw [val_main_v15_apply, val_main_v13_apply, val_main_v8_apply, val_main_v12_apply, val_main_v11_apply,
    val_main_v14_apply, val_main_cst_1_apply, val_main_cst_2_apply, bsq_apply, ksq_apply, dot_apply]
  simp only [Ideal.ofBits_def, Ideal.addf_def, Ideal.subf_def, Ideal.mulf_def, Ideal.maximumf_def]
  rfl

/-- The weight stage. The reference takes the square root of the clamped squared distance and multiplies it by itself;
    the clamped squared distance is nonnegative, so that product is the clamped squared distance again. What remains is
    the clamp below at ε and the inverse: the specification's weight. -/
theorem weight_apply (b : Arr 4096 512) (K : Arr 8192 512) (p : Fin 4096) (n : Fin 8192) :
    val_main_v21 (F := Ideal) b K (ix2 p n) = weight b K p n := by
  rw [val_main_v21_apply, val_main_v20_apply, val_main_v19_apply, val_main_v18_apply, val_main_v17_apply,
    val_main_v16_apply, val_main_cst_4_apply, val_main_cst_3_apply, d2_apply]
  simp only [Ideal.ofBits_def, Ideal.mulf_def, Ideal.maximumf_def, Ideal.hostDivf_def, Ideal.hostUnary_sqrt_def]
  rw [Cert.LibSqrtSquare.sqrt_mul_self _ (sqDist_nonneg _ _ _)]
  rfl

/-- The denominator: the sum of the weights over the 8192 keys (a sum started from the zero word), broadcast along
    the columns: at (p, d) it is Σ_n w(p,n), whatever d. -/
theorem denom_apply (b : Arr 4096 512) (K : Arr 8192 512) (p : Fin 4096) (d : Fin 512) :
    val_main_v25 (F := Ideal) b K (ix2 p d) = ∑ n : Fin 8192, weight b K p n := by
  rw [val_main_v25_apply, val_main_v23_apply, val_main_v22_apply, val_main_cst_5_apply]
  simp only [Ideal.ofBits_def, Ideal.ofBits_zero_f32, zero_add]
  refine Finset.sum_congr rfl fun n _ => ?_
  have e : idx_main_v22 (idx_main_v23 (idx_main_v25 (ix2 p d))) n = ix2 p n :=
    funext fun a => Fin.ext (by match a with | ⟨0, _⟩ => rfl | ⟨1, _⟩ => rfl)
  rw [e, weight_apply]

/-- The numerator: the contraction of the weights with the value rows: at (p, d) it is Σ_n w(p,n)·V[n,d]. -/
theorem numer_apply (b : Arr 4096 512) (K V : Arr 8192 512) (p : Fin 4096) (d : Fin 512) :
    val_main_v24 (F := Ideal) b K V (ix2 p d) = ∑ n : Fin 8192, weight b K p n * V (ix2 n d) := by
  rw [val_main_v24_apply]
  refine Finset.sum_congr rfl fun n _ => ?_
  have el : lidx_main_v24 (ix2 p d) n = ix2 p n :=
    funext fun a => Fin.ext (by match a with | ⟨0, _⟩ => rfl | ⟨1, _⟩ => rfl)
  have er : ridx_main_v24 (ix2 p d) n = ix2 n d :=
    funext fun a => Fin.ext (by match a with | ⟨0, _⟩ => rfl | ⟨1, _⟩ => rfl)
  rw [el, er, weight_apply]

/-- The reference program's result is the specification: at every (p, d) it is the quotient of the weighted sum of
    the values by the sum of the weights. -/
theorem ref_eq (b : Arr 4096 512) (K V : Arr 8192 512) :
    val_main_v26 (F := Ideal) b K V = G b K V := by
  funext i
  obtain ⟨p, d, rfl⟩ : ∃ (p : Fin 4096) (d : Fin 512), i = ix2 p d := ⟨i 0, i 1, eq_ix2 i⟩
  rw [val_main_v26_apply, numer_apply, denom_apply, G_apply]
  simp only [Ideal.hostDivf_def]
  rfl

end Cert.KnnRef

end
-- ==== Proof.lean ====
/-
  The certificate: a tiled inverse-squared-distance nearest-neighbour average against its plain reference.

  For queries b (4096 × 512), keys K and values V (8192 × 512 each) both programs compute, on the extended reals,
      out[p,d] = (Σ_n w(p,n)·V[n,d]) / (Σ_n w(p,n)),   w(p,n) = 1 / max(max(‖b_p‖² + ‖K_n‖² − 2⟨b_p,K_n⟩, 0), ε).
  The reference does it in one piece, and squares the square root of the clamped squared distance; since that distance
  is nonnegative the square of its square root is the distance itself, +inf included. The kernel walks a 4 × 8 grid
  (row blocks of 1024 queries × tiles of 1024 keys), carrying Σ w and Σ w·V across a row block's tiles and dividing after
  the last one; regrouping a sum over 8192 keys into 8 tiles of 1024 uses only commutativity and associativity of
  addition, so no finiteness of the inputs is used anywhere in the value claim. Changes of float format are the identity
  on the extended reals, so the kernel's bf16 copies of K and V are K and V.

  The three frames: the two kernel programs' are the generated frame certificates; the reference's is its generated run
  with the result forgotten. The idealization rewrote no operation, so there is nothing to preserve.
-/
import proofs.«138984_j41927470743575_2_alg».proof.Defs
import proofs.«138984_j41927470743575_2_alg».proof.Proof.Gen.Kernel
import proofs.«138984_j41927470743575_2_alg».proof.Proof.Gen.Kernel.Skeleton
import proofs.«138984_j41927470743575_2_alg».proof.Proof.Gen.Kernel.Launch
import proofs.«138984_j41927470743575_2_alg».proof.Proof.Gen.Kernel.Points
import proofs.«138984_j41927470743575_2_alg».proof.Proof.Gen.Kernel.Frame
import proofs.«138984_j41927470743575_2_alg».proof.Proof.Gen.KernelIdeal
import proofs.«138984_j41927470743575_2_alg».proof.Proof.Gen.KernelIdeal.Skeleton
import proofs.«138984_j41927470743575_2_alg».proof.Proof.Gen.KernelIdeal.Launch
import proofs.«138984_j41927470743575_2_alg».proof.Proof.Gen.KernelIdeal.Points
import proofs.«138984_j41927470743575_2_alg».proof.Proof.Gen.KernelIdeal.Frame
import proofs.«138984_j41927470743575_2_alg».proof.Proof.Gen.ReferenceIdeal
import proofs.«138984_j41927470743575_2_alg».proof.Proof.Gen.Pre_finite_inputs
import proofs.«138984_j41927470743575_2_alg».proof.Proof.Gen.KernelIdeal.Value
import proofs.«138984_j41927470743575_2_alg».proof.Proof.Gen.ReferenceIdeal.Run
import proofs.«138984_j41927470743575_2_alg».proof.Proof.Gen.ReferenceIdeal.Read
import proofs.«138984_j41927470743575_2_alg».proof.Proof.KernelValue
import proofs.«138984_j41927470743575_2_alg».proof.Proof.RefIsSpec
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, with what the result holds forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the idealized kernel's result array and the reference's both end at the specification
    of those arguments. -/
theorem algebraic : Cert.algebraic_KernelIdeal_ReferenceIdeal := by
  intro m ρ m' ρ' _ hagree
  refine ⟨fun c => Cert.KnnKernel.result m c, Cert.KnnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  exact Cert.KnnRef.ref_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
